-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x8x100 : Shape := ⟨3, ![32, 8, 100]⟩
abbrev S32x8x512 : Shape := ⟨3, ![32, 8, 512]⟩
abbrev S30522x768 : Shape := ⟨2, ![30522, 768]⟩
abbrev S100x1000 : Shape := ⟨2, ![100, 1000]⟩
abbrev S1000 : Shape := ⟨1, ![1000]⟩
abbrev S1000x768 : Shape := ⟨2, ![1000, 768]⟩
abbrev S768 : Shape := ⟨1, ![768]⟩
abbrev S_ : Shape := ⟨0, ![]⟩

class Facts : Prop where
  bcast_S_S32x8x100 : S_.BroadcastsInDim S32x8x100 (![] : Fin 0 → Fin S32x8x100.rank)
  reducesTo_S32x8x100_S_d0_1_2 : S32x8x100.ReducesTo [0, 1, 2] S_
  h_S_ : 0 < S_.numel
  bcast_S_S32x8x512 : S_.BroadcastsInDim S32x8x512 (![] : Fin 0 → Fin S32x8x512.rank)
  reducesTo_S32x8x512_S_d0_1_2 : S32x8x512.ReducesTo [0, 1, 2] S_
  bcast_S_S30522x768 : S_.BroadcastsInDim S30522x768 (![] : Fin 0 → Fin S30522x768.rank)
  reducesTo_S30522x768_S_d0_1 : S30522x768.ReducesTo [0, 1] S_
  bcast_S_S100x1000 : S_.BroadcastsInDim S100x1000 (![] : Fin 0 → Fin S100x1000.rank)
  reducesTo_S100x1000_S_d0_1 : S100x1000.ReducesTo [0, 1] S_
  bcast_S_S1000 : S_.BroadcastsInDim S1000 (![] : Fin 0 → Fin S1000.rank)
  reducesTo_S1000_S_d0 : S1000.ReducesTo [0] S_
  bcast_S_S1000x768 : S_.BroadcastsInDim S1000x768 (![] : Fin 0 → Fin S1000x768.rank)
  reducesTo_S1000x768_S_d0_1 : S1000x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S1000 .f32) (main_arg6 : FVec F S1000x768 .f32) (main_arg7 : FVec F S768 .f32) (main_v13 : IVec S_ 1) (main_v16 : IVec S100x1000 1) : IVec S_ 1 :=
  let main_c_5 : IVec S_ 1 := constantI S_ 1 1#1
  let main_v17 : IVec S_ 1 := (fun x v => Host.reduce IntOp.andi x v reducesTo_S100x1000_S_d0_1 h_S_) main_v16 main_c_5
  let main_v18 : IVec S_ 1 := andi main_v13 main_v17
  let main_v19 : FVec F S1000 .f32 := Host.absf main_arg5
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S1000x768 .f32 := Host.absf main_arg6
  let main_cst_8 : FVec F S_ .f32 := constant S_ .f32 0x7F800000#32
  let main_v25 : FVec F S1000x768 .f32 := broadcastInDim S1000x768 ![] bcast_S_S1000x768 main_cst_8
  let main_v26 : IVec S1000x768 1 := cmpf .olt main_v24 main_v25
  let main_c_9 : IVec S_ 1 := constantI S_ 1 1#1
  let main_v27 : IVec S_ 1 := (fun x v => Host.reduce IntOp.andi x v reducesTo_S1000x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : IVec S32x512 32) (main_arg1 : FVec F S32x8x100 .f32) (main_arg2 : FVec F S32x8x512 .f32) (main_arg3 : FVec F S30522x768 .f32) (main_arg4 : FVec F S100x1000 .f32) (main_arg5 : FVec F S1000 .f32) (main_arg6 : FVec F S1000x768 .f32) (main_arg7 : FVec F S768 .f32) : IVec S_ 1 :=
  let main_v0 : FVec F S32x8x100 .f32 := Host.absf main_arg1
  let main_cst : FVec F S_ .f32 := constant S_ .f32 0x7F800000#32
  let main_v1 : FVec F S32x8x100 .f32 := broadcastInDim S32x8x100 ![] bcast_S_S32x8x100 main_cst
  let main_v2 : IVec S32x8x100 1 := cmpf .olt main_v0 main_v1
  let main_c : IVec S_ 1 := constantI S_ 1 1#1
  let main_v3 : IVec S_ 1 := (fun x v => Host.reduce IntOp.andi x v reducesTo_S32x8x100_S_d0_1_2 h_S_) main_v2 main_c
  let main_v4 : FVec F S32x8x512 .f32 := Host.absf main_arg2
  let main_cst_0 : FVec F S_ .f32 := constant S_ .f32 0x7F800000#32
  let main_v5 : FVec F S32x8x512 .f32 := broadcastInDim S32x8x512 ![] bcast_S_S32x8x512 main_cst_0
  let main_v6 : IVec S32x8x512 1 := cmpf .olt main_v4 main_v5
  let main_c_1 : IVec S_ 1 := constantI S_ 1 1#1
  let main_v7 : IVec S_ 1 := (fun x v => Host.reduce IntOp.andi x v reducesTo_S32x8x512_S_d0_1_2 h_S_) main_v6 main_c_1
  let main_v8 : IVec S_ 1 := andi main_v3 main_v7
  let main_v9 : FVec F S30522x768 .f32 := Host.absf main_arg3
  let main_cst_2 : FVec F S_ .f32 := constant S_ .f32 0x7F800000#32
  let main_v10 : FVec F S30522x768 .f32 := broadcastInDim S30522x768 ![] bcast_S_S30522x768 main_cst_2
  let main_v11 : IVec S30522x768 1 := cmpf .olt main_v9 main_v10
  let main_c_3 : IVec S_ 1 := constantI S_ 1 1#1
  let main_v12 : IVec S_ 1 := (fun x v => Host.reduce IntOp.andi x v reducesTo_S30522x768_S_d0_1 h_S_) main_v11 main_c_3
  let main_v13 : IVec S_ 1 := andi main_v8 main_v12
  let main_v14 : FVec F S100x1000 .f32 := Host.absf main_arg4
  let main_cst_4 : FVec F S_ .f32 := constant S_ .f32 0x7F800000#32
  let main_v15 : FVec F S100x1000 .f32 := broadcastInDim S100x1000 ![] bcast_S_S100x1000 main_cst_4
  let main_v16 : IVec S100x1000 1 := cmpf .olt main_v14 main_v15
  fn_part1 (F := F) main_arg5 main_arg6 main_arg7 main_v13 main_v16
-- ==== Kernel.lean ====
abbrev S32x512 : Shape := ⟨2, ![32, 512]⟩
abbrev S32x8x100 : Shape := ⟨3, ![32, 8, 100]⟩
abbrev S32x8x512 : Shape := ⟨3, ![32, 8, 512]⟩
abbrev S30522x768 : Shape := ⟨2, ![30522, 768]⟩
abbrev S100x1000 : Shape := ⟨2, ![100, 1000]⟩
abbrev S1000 : Shape := ⟨1, ![1000]⟩
abbrev S1000x768 : Shape := ⟨2, ![1000, 768]⟩
abbrev S768 : Shape := ⟨1, ![768]⟩
abbrev S_ : Shape := ⟨0, ![]⟩
abbrev S32x512x1 : Shape := ⟨3, ![32, 512, 1]⟩
abbrev S32x512x768 : Shape := ⟨3, ![32, 512, 768]⟩
abbrev S256x100 : Shape := ⟨2, ![256, 100]⟩
abbrev S1x1000 : Shape := ⟨2, ![1, 1000]⟩
abbrev S1x768 : Shape := ⟨2, ![1, 768]⟩
abbrev S256x768 : Shape := ⟨2, ![256, 768]⟩
abbrev S256x1000 : Shape := ⟨2, ![256, 1000]⟩
abbrev S32x8x768 : Shape := ⟨3, ![32, 8, 768]⟩
abbrev S1x512x768 : Shape := ⟨3, ![1, 512, 768]⟩
abbrev S1x8x512 : Shape := ⟨3, ![1, 8, 512]⟩
abbrev S1x8x768 : Shape := ⟨3, ![1, 8, 768]⟩
abbrev S8x512 : Shape := ⟨2, ![8, 512]⟩
abbrev S512x8 : Shape := ⟨2, ![512, 8]⟩
abbrev S8x768 : Shape := ⟨2, ![8, 768]⟩
abbrev S512x768 : Shape := ⟨2, ![512, 768]⟩

abbrev nBuf : Space → Nat
  | .hbm => 23
  | .vmem => 14
  | .smem => 0
  | _ => 0

abbrev bufTy : (tb : Table) → Fin (tcTables nBuf tb) → BufTy
  | .hbm, ⟨0, _⟩ => ⟨S32x512, .i32⟩
  | .hbm, ⟨1, _⟩ => ⟨S32x8x100, .f32⟩
  | .hbm, ⟨2, _⟩ => ⟨S32x8x512, .f32⟩
  | .hbm, ⟨3, _⟩ => ⟨S30522x768, .f32⟩
  | .hbm, ⟨4, _⟩ => ⟨S100x1000, .f32⟩
  | .hbm, ⟨5, _⟩ => ⟨S1000, .f32⟩
  | .hbm, ⟨6, _⟩ => ⟨S1000x768, .f32⟩
  | .hbm, ⟨7, _⟩ => ⟨S768, .f32⟩
  | .hbm, ⟨8, _⟩ => ⟨S_, .i32⟩
  | .hbm, ⟨9, _⟩ => ⟨S32x512, .i32⟩
  | .hbm, ⟨10, _⟩ => ⟨S32x512, .i1⟩
  | .hbm, ⟨11, _⟩ => ⟨S_, .i32⟩
  | .hbm, ⟨12, _⟩ => ⟨S32x512, .i32⟩
  | .hbm, ⟨13, _⟩ => ⟨S32x512, .i32⟩
  | .hbm, ⟨14, _⟩ => ⟨S32x512, .i32⟩
  | .hbm, ⟨15, _⟩ => ⟨S32x512x1, .i32⟩
  | .hbm, ⟨16, _⟩ => ⟨S32x512x768, .f32⟩
  | .hbm, ⟨17, _⟩ => ⟨S256x100, .f32⟩
  | .hbm, ⟨18, _⟩ => ⟨S1x1000, .f32⟩
  | .hbm, ⟨19, _⟩ => ⟨S1x768, .f32⟩
  | .hbm, ⟨20, _⟩ => ⟨S256x768, .f32⟩
  | .hbm, ⟨21, _⟩ => ⟨S32x8x768, .f32⟩
  | .hbm, ⟨22, _⟩ => ⟨S32x512x768, .f32⟩
  | .local _ .vmem, ⟨0, _⟩ => ⟨S256x100, .f32⟩
  | .local _ .vmem, ⟨1, _⟩ => ⟨S100x1000, .f32⟩
  | .local _ .vmem, ⟨2, _⟩ => ⟨S1x1000, .f32⟩
  | .local _ .vmem, ⟨3, _⟩ => ⟨S1000x768, .f32⟩
  | .local _ .vmem, ⟨4, _⟩ => ⟨S1x768, .f32⟩
  | .local _ .vmem, ⟨5, _⟩ => ⟨S256x768, .f32⟩
  | .local _ .vmem, ⟨6, _⟩ => ⟨S1x512x768, .f32⟩
  | .local _ .vmem, ⟨7, _⟩ => ⟨S1x512x768, .f32⟩
  | .local _ .vmem, ⟨8, _⟩ => ⟨S1x8x512, .f32⟩
  | .local _ .vmem, ⟨9, _⟩ => ⟨S1x8x512, .f32⟩
  | .local _ .vmem, ⟨10, _⟩ => ⟨S1x8x768, .f32⟩
  | .local _ .vmem, ⟨11, _⟩ => ⟨S1x8x768, .f32⟩
  | .local _ .vmem, ⟨12, _⟩ => ⟨S1x512x768, .f32⟩
  | .local _ .vmem, ⟨13, _⟩ => ⟨S1x512x768, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  shapeCasts_S32x8x100_S256x100 : S32x8x100.ShapeCasts S256x100
  shapeCasts_S1000_S1x1000 : S1000.ShapeCasts S1x1000
  shapeCasts_S768_S1x768 : S768.ShapeCasts S1x768
  inb_S256x100_S256x100_0_0 : ∀ a, (![0, 0] : Fin 2 → Nat) a + S256x100.size a ≤ S256x100.size a
  h_S256x100 : 0 < S256x100.numel
  shapeCasts_S256x100_S256x100 : S256x100.ShapeCasts S256x100
  bitsLt_bf16_f32 : FTy.bits .bf16 < FTy.bits .f32
  inb_S100x1000_S100x1000_0_0 : ∀ a, (![0, 0] : Fin 2 → Nat) a + S100x1000.size a ≤ S100x1000.size a
  h_S100x1000 : 0 < S100x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S1000x768_S1000x768_0_0 : ∀ a, (![0, 0] : Fin 2 → Nat) a + S1000x768.size a ≤ S1000x768.size a
  h_S1000x768 : 0 < S1000x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S256x768_S256x768_0_0 : ∀ a, (![0, 0] : Fin 2 → Nat) a + S256x768.size a ≤ S256x768.size a
  h_S256x768 : 0 < S256x768.numel
  shapeCasts_S256x768_S32x8x768 : S256x768.ShapeCasts S32x8x768
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  transposes_S8x512_p1_0_S512x8 : S8x512.Transposes [1, 0] S512x8
  inb_S1x8x768_S1x8x768_0_0_0 : ∀ a, (![0, 0, 0] : Fin 3 → Nat) a + S1x8x768.size a ≤ S1x8x768.size a
  h_S1x8x768 : 0 < S1x8x768.numel
  shapeCasts_S1x8x768_S8x768 : S1x8x768.ShapeCasts S8x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  gather_S30522x768_S32x512x1_S32x512x768_2_0_n_n_0_2_1768_wf : GatherDims.WF S30522x768 S32x512x1 S32x512x768 [2] [0] [] [0] [] 2 ![1, 768]
  dot_S256x100_S100x1000_S256x1000_1_0_0_1_n_n_wf : DotDims.WF S256x100 S100x1000 S256x1000 [1] [0] [0] [1] [] []
  dot_S256x1000_S1000x768_S256x768_1_0_0_1_n_n_wf : DotDims.WF S256x1000 S1000x768 S256x768 [1] [0] [0] [1] [] []
  dot_S512x8_S8x768_S512x768_1_0_0_1_n_n_wf : DotDims.WF S512x8 S8x768 S512x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x100.size a ≤ S256x100.size a
  hwx0_0 : ∀ i : grid0.Coords, EltTy.bits .f32 = 32 ∨ (Rect.block (s := S256x100) S256x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x1000.size a ≤ S100x1000.size a
  hwx0_1 : ∀ i : grid0.Coords, EltTy.bits .f32 = 32 ∨ (Rect.block (s := S100x1000) S100x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x768.size a ≤ S1000x768.size a
  hwx0_3 : ∀ i : grid0.Coords, EltTy.bits .f32 = 32 ∨ (Rect.block (s := S1000x768) S1000x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S32x512x768.size a
  hwx1_0 : ∀ i : grid1.Coords, EltTy.bits .f32 = 32 ∨ (Rect.block (s := S32x512x768) S1x512x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x512.size a ≤ S32x8x512.size a
  hwx1_1 : ∀ i : grid1.Coords, EltTy.bits .f32 = 32 ∨ (Rect.block (s := S32x8x512) S1x8x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x768.size a ≤ S32x8x768.size a
  hwx1_2 : ∀ i : grid1.Coords, EltTy.bits .f32 = 32 ∨ (Rect.block (s := S32x8x768) S1x8x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x768.size a ≤ S32x512x768.size a
  hwx1_3 : ∀ i : grid1.Coords, EltTy.bits .f32 = 32 ∨ (Rect.block (s := S32x512x768) S1x512x768.size (cc1_transform_3 i) (hinb1_3 i)).WholeWords (EltTy.packing .f32)

variable [Facts₀]

def gather_S30522x768_S32x512x1_S32x512x768_2_0_n_n_0_2_1768 : GatherDims S30522x768 S32x512x1 S32x512x768 where
  offsetDims := [2]
  collapsedSliceDims := [0]
  operandBatchingDims := []
  startIndicesBatchingDims := []
  startIndexMap := [0]
  indexVectorDim := 2
  sliceSizes := ![1, 768]
  wf := gather_S30522x768_S32x512x1_S32x512x768_2_0_n_n_0_2_1768_wf
def dot_S256x100_S100x1000_S256x1000_1_0_0_1_n_n : DotDims S256x100 S100x1000 S256x1000 where
  lhsContracting := [1]
  rhsContracting := [0]
  lhsNonContracting := [0]
  rhsNonContracting := [1]
  lhsBatch := []
  rhsBatch := []
  wf := dot_S256x100_S100x1000_S256x1000_1_0_0_1_n_n_wf
def dot_S256x1000_S1000x768_S256x768_1_0_0_1_n_n : DotDims S256x1000 S1000x768 S256x768 where
  lhsContracting := [1]
  rhsContracting := [0]
  lhsNonContracting := [0]
  rhsNonContracting := [1]
  lhsBatch := []
  rhsBatch := []
  wf := dot_S256x1000_S1000x768_S256x768_1_0_0_1_n_n_wf
def dot_S512x8_S8x768_S512x768_1_0_0_1_n_n : DotDims S512x8 S8x768 S512x768 where
  lhsContracting := [1]
  rhsContracting := [0]
  lhsNonContracting := [0]
  rhsNonContracting := [1]
  lhsBatch := []
  rhsBatch := []
  wf := dot_S512x8_S8x768_S512x768_1_0_0_1_n_n_wf

abbrev win0_0 : Pipeline.Window sig grid0 :=
  Pipeline.Window.ofSpec (Memref.whole main_v7) S256x100.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1000x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x768.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x8x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  halias1_3 : Pipeline.Aliased win1 0 3

variable [Facts]
-- ==== ReferenceIdeal.lean ====
abbrev S32x512 : Shape := ⟨2, ![32, 512]⟩
abbrev S32x8x100 : Shape := ⟨3, ![32, 8, 100]⟩
abbrev S32x8x512 : Shape := ⟨3, ![32, 8, 512]⟩
abbrev S30522x768 : Shape := ⟨2, ![30522, 768]⟩
abbrev S100x1000 : Shape := ⟨2, ![100, 1000]⟩
abbrev S1000 : Shape := ⟨1, ![1000]⟩
abbrev S1000x768 : Shape := ⟨2, ![1000, 768]⟩
abbrev S768 : Shape := ⟨1, ![768]⟩
abbrev S_ : Shape := ⟨0, ![]⟩
abbrev S32x512x1 : Shape := ⟨3, ![32, 512, 1]⟩
abbrev S32x512x768 : Shape := ⟨3, ![32, 512, 768]⟩
abbrev S32x8x1000 : Shape := ⟨3, ![32, 8, 1000]⟩
abbrev S1x1x1000 : Shape := ⟨3, ![1, 1, 1000]⟩
abbrev S32x8x768 : Shape := ⟨3, ![32, 8, 768]⟩
abbrev S1x1x768 : Shape := ⟨3, ![1, 1, 768]⟩

abbrev nBuf : Space → Nat
  | .hbm => 30
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S32x8x100, .f32⟩
  | .hbm, ⟨2, _⟩ => ⟨S32x8x512, .f32⟩
  | .hbm, ⟨3, _⟩ => ⟨S30522x768, .f32⟩
  | .hbm, ⟨4, _⟩ => ⟨S100x1000, .f32⟩
  | .hbm, ⟨5, _⟩ => ⟨S1000, .f32⟩
  | .hbm, ⟨6, _⟩ => ⟨S1000x768, .f32⟩
  | .hbm, ⟨7, _⟩ => ⟨S768, .f32⟩
  | .hbm, ⟨8, _⟩ => ⟨S_, .i32⟩
  | .hbm, ⟨9, _⟩ => ⟨S32x512, .i32⟩
  | .hbm, ⟨10, _⟩ => ⟨S32x512, .i1⟩
  | .hbm, ⟨11, _⟩ => ⟨S_, .i32⟩
  | .hbm, ⟨12, _⟩ => ⟨S32x512, .i32⟩
  | .hbm, ⟨13, _⟩ => ⟨S32x512, .i32⟩
  | .hbm, ⟨14, _⟩ => ⟨S32x512, .i32⟩
  | .hbm, ⟨15, _⟩ => ⟨S32x512x1, .i32⟩
  | .hbm, ⟨16, _⟩ => ⟨S32x512x768, .f32⟩
  | .hbm, ⟨17, _⟩ => ⟨S32x8x1000, .f32⟩
  | .hbm, ⟨18, _⟩ => ⟨S1x1x1000, .f32⟩
  | .hbm, ⟨19, _⟩ => ⟨S32x8x1000, .f32⟩
  | .hbm, ⟨20, _⟩ => ⟨S32x8x1000, .f32⟩
  | .hbm, ⟨21, _⟩ => ⟨S_, .f32⟩
  | .hbm, ⟨22, _⟩ => ⟨S32x8x1000, .f32⟩
  | .hbm, ⟨23, _⟩ => ⟨S32x8x1000, .f32⟩
  | .hbm, ⟨24, _⟩ => ⟨S32x8x768, .f32⟩
  | .hbm, ⟨25, _⟩ => ⟨S1x1x768, .f32⟩
  | .hbm, ⟨26, _⟩ => ⟨S32x8x768, .f32⟩
  | .hbm, ⟨27, _⟩ => ⟨S32x8x768, .f32⟩
  | .hbm, ⟨28, _⟩ => ⟨S32x512x768, .f32⟩
  | .hbm, ⟨29, _⟩ => ⟨S32x512x768, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S1000_S1x1x1000_2 : S1000.BroadcastsInDim S1x1x1000 (![2] : Fin 1 → Fin S1x1x1000.rank)
  bcast_S1x1x1000_S32x8x1000_0_1_2 : S1x1x1000.BroadcastsInDim S32x8x1000 (![0, 1, 2] : Fin 3 → Fin S32x8x1000.rank)
  bcast_S_S32x8x1000 : S_.BroadcastsInDim S32x8x1000 (![] : Fin 0 → Fin S32x8x1000.rank)
  bcast_S768_S1x1x768_2 : S768.BroadcastsInDim S1x1x768 (![2] : Fin 1 → Fin S1x1x768.rank)
  bcast_S1x1x768_S32x8x768_0_1_2 : S1x1x768.BroadcastsInDim S32x8x768 (![0, 1, 2] : Fin 3 → Fin S32x8x768.rank)
  gather_S30522x768_S32x512x1_S32x512x768_2_0_n_n_0_2_1768_wf : GatherDims.WF S30522x768 S32x512x1 S32x512x768 [2] [0] [] [0] [] 2 ![1, 768]
  dot_S32x8x100_S100x1000_S32x8x1000_2_0_01_1_n_n_wf : DotDims.WF S32x8x100 S100x1000 S32x8x1000 [2] [0] [0, 1] [1] [] []
  dot_S32x8x1000_S1000x768_S32x8x768_2_0_01_1_n_n_wf : DotDims.WF S32x8x1000 S1000x768 S32x8x768 [2] [0] [0, 1] [1] [] []
  dot_S32x8x512_S32x8x768_S32x512x768_1_1_2_2_0_0_wf : DotDims.WF S32x8x512 S32x8x768 S32x512x768 [1] [1] [2] [2] [0] [0]

variable [Facts₀]

def gather_S30522x768_S32x512x1_S32x512x768_2_0_n_n_0_2_1768 : GatherDims S30522x768 S32x512x1 S32x512x768 where
  offsetDims := [2]
  collapsedSliceDims := [0]
  operandBatchingDims := []
  startIndicesBatchingDims := []
  startIndexMap := [0]
  indexVectorDim := 2
  sliceSizes := ![1, 768]
  wf := gather_S30522x768_S32x512x1_S32x512x768_2_0_n_n_0_2_1768_wf
def dot_S32x8x100_S100x1000_S32x8x1000_2_0_01_1_n_n : DotDims S32x8x100 S100x1000 S32x8x1000 where
  lhsContracting := [2]
  rhsContracting := [0]
  lhsNonContracting := [0, 1]
  rhsNonContracting := [1]
  lhsBatch := []
  rhsBatch := []
  wf := dot_S32x8x100_S100x1000_S32x8x1000_2_0_01_1_n_n_wf
def dot_S32x8x1000_S1000x768_S32x8x768_2_0_01_1_n_n : DotDims S32x8x1000 S1000x768 S32x8x768 where
  lhsContracting := [2]
  rhsContracting := [0]
  lhsNonContracting := [0, 1]
  rhsNonContracting := [1]
  lhsBatch := []
  rhsBatch := []
  wf := dot_S32x8x1000_S1000x768_S32x8x768_2_0_01_1_n_n_wf
def dot_S32x8x512_S32x8x768_S32x512x768_1_1_2_2_0_0 : DotDims S32x8x512 S32x8x768 S32x512x768 where
  lhsContracting := [1]
  rhsContracting := [1]
  lhsNonContracting := [2]
  rhsNonContracting := [2]
  lhsBatch := [0]
  rhsBatch := [0]
  wf := dot_S32x8x512_S32x8x768_S32x512x768_1_1_2_2_0_0_wf

class Facts : Prop extends Facts₀ where

variable [Facts]
-- ==== Proof.WholeRun.lean ====
/-
  The run of the whole program with its result kept.  The program is four stretches in order: the host operations that
  gather the token embeddings and flatten the operands, the dense region, the host operations that regroup its output
  and copy the gathered embeddings into the result buffer, and the scatter region.  Every weakly fair execution ends with
  each buffer at the contents the last stretch leaves; here that statement is kept for the result buffer too (the frame
  claim keeps it only for the arguments), so that the result can be read off the second region's write-backs.
-/
import proofs.«174357_j9955734192251_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the scatter region's
    write-backs leave in it and the eight arguments as launched. -/
theorem run_kept : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.DenseBody.lean ====
/-
  The dense part of the kernel (two matrix products with a rectified sum between them), read one entry at a time on
  the extended reals.  Row r, column d of what the first region stores is

      (Σ_h  max (Σ_k a[r,k]·w1[k,h] + b1[0,h], 0) · w2[h,d]) + b2[0,d]

  with a the 256×100 block of flattened entity vectors, w1, w2 the two weight matrices and b1, b2 the two bias rows.
  Rounding to a narrower float format is the identity here, and a matrix product into a zero accumulator is the plain
  sum over the contracted axis.
-/
import proofs.«174357_j9955734192251_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.ValueIdx

/-! ## The first product: [256,100] × [100,1000] -/

local notation "D1" => dot_S256x100_S100x1000_S256x1000_1_0_0_1_n_n

theorem d1_lhs0 (i : S256x1000.Idx) (q : (D1).contr.Idx) : ((D1).lhsIdx i q 0).val = (i 0).val := by
  unfold DotDims.lhsIdx
  rw [dif_neg (show ¬(0 : Fin S256x100.rank) ∈ (D1).lhsBatch by decide), dif_pos (show (0 : Fin S256x100.rank) ∈ (D1).lhsNonContracting by decide)]
  rfl
theorem d1_lhs1 (i : S256x1000.Idx) (q : (D1).contr.Idx) : ((D1).lhsIdx i q 1).val = (q ⟨0, by decide⟩).val :=
  (D1).lhsIdx_val_of_single rfl i q
theorem d1_rhs0 (i : S256x1000.Idx) (q : (D1).contr.Idx) : ((D1).rhsIdx i q 0).val = (q ⟨0, by decide⟩).val :=
  (D1).rhsIdx_val_of_single rfl i q
theorem d1_rhs1 (i : S256x1000.Idx) (q : (D1).contr.Idx) : ((D1).rhsIdx i q 1).val = (i 1).val := by
  unfold DotDims.rhsIdx
  rw [dif_neg (show ¬(1 : Fin S100x1000.rank) ∈ (D1).rhsBatch by decide), dif_pos (show (1 : Fin S100x1000.rank) ∈ (D1).rhsNonContracting by decide)]
  rfl

/-- Entry (r, h) of the first product is the sum over k of a[r,k]·w1[k,h]. -/
theorem product1_apply {φ₁ φ₂ : FTy} (l : FVec Ideal S256x100 φ₁) (w : FVec Ideal S100x1000 φ₂) (r : Fin 256) (h : Fin 1000) :
    matmul D1 none l w (constant (F := Ideal) S256x1000 .f32 0x00000000#32) (ix2 r h)
      = ∑ k : Fin 100, l (ix2 r k) * w (ix2 k h) := by
  simp only [matmul]
  rw [Ideal.matmul_constant_zero_apply, ← Equiv.sum_comp (contrEquiv1 D1 100 rfl rfl).symm]
  refine Finset.sum_congr rfl fun k _ => ?_
  have hk := contrEquiv1_symm_val D1 100 rfl rfl k
  have el : (D1).lhsIdx (ix2 r h) ((contrEquiv1 D1 100 rfl rfl).symm k) = ix2 r k := funext fun a => Fin.ext (by
    match a with
    | ⟨0, _⟩ => exact d1_lhs0 _ _
    | ⟨1, _⟩ => exact (d1_lhs1 _ _).trans hk)
  have er : (D1).rhsIdx (ix2 r h) ((contrEquiv1 D1 100 rfl rfl).symm k) = ix2 k h := funext fun a => Fin.ext (by
    match a with
    | ⟨0, _⟩ => exact (d1_rhs0 _ _).trans hk
    | ⟨1, _⟩ => exact d1_rhs1 _ _)
  rw [el, er]

/-! ## The second product: [256,1000] × [1000,768] -/

local notation "D2" => dot_S256x1000_S1000x768_S256x768_1_0_0_1_n_n

theorem d2_lhs0 (i : S256x768.Idx) (q : (D2).contr.Idx) : ((D2).lhsIdx i q 0).val = (i 0).val := by
  unfold DotDims.lhsIdx
  rw [dif_neg (show ¬(0 : Fin S256x1000.rank) ∈ (D2).lhsBatch by decide), dif_pos (show (0 : Fin S256x1000.rank) ∈ (D2).lhsNonContracting by decide)]
  rfl
theorem d2_lhs1 (i : S256x768.Idx) (q : (D2).contr.Idx) : ((D2).lhsIdx i q 1).val = (q ⟨0, by decide⟩).val :=
  (D2).lhsIdx_val_of_single rfl i q
theorem d2_rhs0 (i : S256x768.Idx) (q : (D2).contr.Idx) : ((D2).rhsIdx i q 0).val = (q ⟨0, by decide⟩).val :=
  (D2).rhsIdx_val_of_single rfl i q
theorem d2_rhs1 (i : S256x768.Idx) (q : (D2).contr.Idx) : ((D2).rhsIdx i q 1).val = (i 1).val := by
  unfold DotDims.rhsIdx
  rw [dif_neg (show ¬(1 : Fin S1000x768.rank) ∈ (D2).rhsBatch by decide), dif_pos (show (1 : Fin S1000x768.rank) ∈ (D2).rhsNonContracting by decide)]
  rfl

/-- Entry (r, d) of the second product is the sum over h of u[r,h]·w2[h,d]. -/
theorem product2_apply {φ₁ φ₂ : FTy} (l : FVec Ideal S256x1000 φ₁) (w : FVec Ideal S1000x768 φ₂) (r : Fin 256) (d : Fin 768) :
    matmul D2 none l w (constant (F := Ideal) S256x768 .f32 0x00000000#32) (ix2 r d)
      = ∑ h : Fin 1000, l (ix2 r h) * w (ix2 h d) := by
  simp only [matmul]
  rw [Ideal.matmul_constant_zero_apply, ← Equiv.sum_comp (contrEquiv1 D2 1000 rfl rfl).symm]
  refine Finset.sum_congr rfl fun k _ => ?_
  have hk := contrEquiv1_symm_val D2 1000 rfl rfl k
  have el : (D2).lhsIdx (ix2 r d) ((contrEquiv1 D2 1000 rfl rfl).symm k) = ix2 r k := funext fun a => Fin.ext (by
    match a with
    | ⟨0, _⟩ => exact d2_lhs0 _ _
    | ⟨1, _⟩ => exact (d2_lhs1 _ _).trans hk)
  have er : (D2).rhsIdx (ix2 r d) ((contrEquiv1 D2 1000 rfl rfl).symm k) = ix2 k d := funext fun a => Fin.ext (by
    match a with
    | ⟨0, _⟩ => exact (d2_rhs0 _ _).trans hk
    | ⟨1, _⟩ => exact d2_rhs1 _ _)
  rw [el, er]

/-! ## The whole dense body at an entry -/

/-- The rectified hidden layer, entry (r, h): max (Σ_k a[r,k]·w1[k,h] + b1[0,h], 0). -/
def hidden (a : Vec Ideal S256x100 .f32) (w1 : Vec Ideal S100x1000 .f32) (b1 : Vec Ideal S1x1000 .f32) (r : Fin 256) (h : Fin 1000) : EReal :=
  max ((∑ k : Fin 100, a (ix2 r k) * w1 (ix2 k h)) + b1 (ix2 (0 : Fin 1) h)) (Ideal.ofBits .f32 0x00000000#32)

/-- What the first region's body stores, entry (r, d). -/
theorem dense_apply (a : Vec Ideal S256x100 .f32) (w1 : Vec Ideal S100x1000 .f32) (b1 : Vec Ideal S1x1000 .f32)
    (w2 : Vec Ideal S1000x768 .f32) (b2 : Vec Ideal S1x768 .f32) (r : Fin 256) (d : Fin 768) :
    k0_pay1 (F := Ideal) a w1 b1 w2 b2 (ix2 r d)
      = (∑ h : Fin 1000, hidden a w1 b1 r h * w2 (ix2 h d)) + b2 (ix2 (0 : Fin 1) d) := by
  unfold k0_pay1
  simp only [shapeCast_self]
  rw [addf_apply, product2_apply, broadcastTo_1b_ab_apply]
  refine congrArg (· + b2 (ix2 (0 : Fin 1) d)) (Finset.sum_congr rfl fun h _ => ?_)
  rw [truncf_apply, truncf_apply, maximumf_apply, addf_apply, product1_apply, broadcastTo_1b_ab_apply]
  rfl

end Cert.KernelIdeal.Dense

end
-- ==== Proof.DenseRegion.lean ====
/-
  What the dense region leaves in its result array, as one function of the five arrays it reads.  The grid has a single
  point, every window's one block is its whole array, and the single write-back covers the whole result, so after the
  region, for every row r (one flattened batch-and-entity pair) and column d,

      result[r,d] = (Σ_h max (Σ_k A[r,k]·W1[k,h] + B1[0,h], 0) · W2[h,d]) + B2[0,d].
-/
import proofs.«174357_j9955734192251_1_alg».proof.Proof.Gen.KernelIdeal.Frame
import proofs.«174357_j9955734192251_1_alg».proof.Proof.DenseBody

set_option maxRecDepth 16384

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two-layer map of the flattened entity vectors, entry by entry. -/
def dense (A : S256x100.Idx → EReal) (W1 : S100x1000.Idx → EReal) (B1 : S1x1000.Idx → EReal) (W2 : S1000x768.Idx → EReal)
    (B2 : S1x768.Idx → EReal) : S256x768.Idx → EReal :=
  fun i => (∑ h : Fin 1000, hidden A W1 B1 (⟨(i 0).val, (i 0).isLt⟩ : Fin 256) h * W2 (ix2 h (⟨(i 1).val, (i 1).isLt⟩ : Fin 768)))
    + B2 (ix2 (0 : Fin 1) (⟨(i 1).val, (i 1).isLt⟩ : Fin 768))

theorem hz2 : (![0, 0] : Fin 2 → Nat) = fun _ => 0 := funext fun a => by fin_cases a <;> rfl

/-- Every window's block index is (0, 0) at the grid's one point. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Each input block is the whole array the region finds. -/
theorem rows_whole (c : Dev nD) (t : Fin cfg0.N) :
    (iblk0 V c 0 t : Vec Ideal S256x100 .f32) = (V c main_v7 : S256x100.Idx → EReal) := by
  obtain ⟨e0, e1, -⟩ := block_index t
  funext y
  unfold iblk0
  rw [View.read_apply]
  show V c main_v7 _ = V c main_v7 _
  congr 1
  funext a
  apply Fin.ext
  match a with
  | ⟨0, _⟩ => show win0_0.index t (0 : Fin 2) * 256 + 1 * (y 0).val = (y 0).val; omega
  | ⟨1, _⟩ => show win0_0.index t (1 : Fin 2) * 100 + 1 * (y 1).val = (y 1).val; omega
theorem weights1_whole (c : Dev nD) (t : Fin cfg0.N) :
    (iblk0 V c 1 t : Vec Ideal S100x1000 .f32) = (V c main_arg4 : S100x1000.Idx → EReal) := by
  obtain ⟨-, -, e0, e1, -⟩ := block_index t
  funext y
  unfold iblk0
  rw [View.read_apply]
  show V c main_arg4 _ = V c main_arg4 _
  congr 1
  funext a
  apply Fin.ext
  match a with
  | ⟨0, _⟩ => show win0_1.index t (0 : Fin 2) * 100 + 1 * (y 0).val = (y 0).val; omega
  | ⟨1, _⟩ => show win0_1.index t (1 : Fin 2) * 1000 + 1 * (y 1).val = (y 1).val; omega
theorem bias1_whole (c : Dev nD) (t : Fin cfg0.N) :
    (iblk0 V c 2 t : Vec Ideal S1x1000 .f32) = (V c main_v8 : S1x1000.Idx → EReal) := by
  obtain ⟨-, -, -, -, e0, e1, -⟩ := block_index t
  funext y
  unfold iblk0
  rw [View.read_apply]
  show V c main_v8 _ = V c main_v8 _
  congr 1
  funext a
  apply Fin.ext
  match a with
  | ⟨0, _⟩ => show win0_2.index t (0 : Fin 2) * 1 + 1 * (y 0).val = (y 0).val; omega
  | ⟨1, _⟩ => show win0_2.index t (1 : Fin 2) * 1000 + 1 * (y 1).val = (y 1).val; omega
theorem weights2_whole (c : Dev nD) (t : Fin cfg0.N) :
    (iblk0 V c 3 t : Vec Ideal S1000x768 .f32) = (V c main_arg6 : S1000x768.Idx → EReal) := by
  obtain ⟨-, -, -, -, -, -, e0, e1, -⟩ := block_index t
  funext y
  unfold iblk0
  rw [View.read_apply]
  show V c main_arg6 _ = V c main_arg6 _
  congr 1
  funext a
  apply Fin.ext
  match a with
  | ⟨0, _⟩ => show win0_3.index t (0 : Fin 2) * 1000 + 1 * (y 0).val = (y 0).val; omega
  | ⟨1, _⟩ => show win0_3.index t (1 : Fin 2) * 768 + 1 * (y 1).val = (y 1).val; omega
theorem bias2_whole (c : Dev nD) (t : Fin cfg0.N) :
    (iblk0 V c 4 t : Vec Ideal S1x768 .f32) = (V c main_v9 : S1x768.Idx → EReal) := by
  obtain ⟨-, -, -, -, -, -, -, -, e0, e1, -⟩ := block_index t
  funext y
  unfold iblk0
  rw [View.read_apply]
  show V c main_v9 _ = V c main_v9 _
  congr 1
  funext a
  apply Fin.ext
  match a with
  | ⟨0, _⟩ => show win0_4.index t (0 : Fin 2) * 1 + 1 * (y 0).val = (y 0).val; omega
  | ⟨1, _⟩ => show win0_4.index t (1 : Fin 2) * 768 + 1 * (y 1).val = (y 1).val; omega

/-- One stored entry, from blocks that are whole arrays: the two-layer map at the same entry. -/
theorem dense_point (a : Vec Ideal S256x100 .f32) (w1 : Vec Ideal S100x1000 .f32) (b1 : Vec Ideal S1x1000 .f32)
    (w2 : Vec Ideal S1000x768 .f32) (b2 : Vec Ideal S1x768 .f32)
    (A : S256x100.Idx → EReal) (W1 : S100x1000.Idx → EReal) (B1 : S1x1000.Idx → EReal) (W2 : S1000x768.Idx → EReal) (B2 : S1x768.Idx → EReal)
    (j i : S256x768.Idx) (h0 : (i 0).val = (j 0).val) (h1 : (i 1).val = (j 1).val)
    (ha : a = A) (hw1 : w1 = W1) (hb1 : b1 = B1) (hw2 : w2 = W2) (hb2 : b2 = B2) :
    k0_pay1 (F := Ideal) a w1 b1 w2 b2 j = dense A W1 B1 W2 B2 i := by
  subst ha hw1 hb1 hw2 hb2
  obtain ⟨r, d, rfl⟩ : ∃ (r : Fin 256) (d : Fin 768), j = ix2 r d := ⟨j 0, j 1, eq_ix2 j⟩
  rw [dense_apply]
  unfold dense
  have er : (⟨(i 0).val, (i 0).isLt⟩ : Fin 256) = r := Fin.ext h0
  have ed : (⟨(i 1).val, (i 1).isLt⟩ : Fin 768) = d := Fin.ext h1
  rw [er, ed]

/-- WHAT THE ONE POINT WRITES BACK is the (whole-array) block of the two-layer map of the arrays the region finds. -/
theorem flushed_eq (c : Dev nD) (t : Fin cfg0.N) :
    (dat0 V c).flushed 5 t = ((cfg0.win 5).blk t).view.read (Elt Ideal)
      (dense (V c main_v7) (V c main_arg4) (V c main_v8) (V c main_arg6) (V c main_v9)) := by
  show (cfg0.win 5).cut (grid0.coords t) ((dat0 V c).after 5 t) = _
  rw [after0_5]
  unfold out0_5
  rw [View.canon_unit_zero hz2]
  simp only [View.ld_unit_zero (S := S256x100) hz2, View.ld_unit_zero (S := S100x1000) hz2, View.ld_unit_zero (S := S1x1000) hz2,
    View.ld_unit_zero (S := S1000x768) hz2, View.ld_unit_zero (S := S1x768) hz2]
  obtain ⟨-, -, -, -, -, -, -, -, -, -, e0, e1⟩ := block_index t
  funext j
  show k0_pay1 (F := Ideal) (iblk0 V c 0 t) (iblk0 V c 1 t) (iblk0 V c 2 t) (iblk0 V c 3 t) (iblk0 V c 4 t) j
    = dense (V c main_v7) (V c main_arg4) (V c main_v8) (V c main_arg6) (V c main_v9) (((cfg0.win 5).blk t).view.emb j)
  have hi0 : ((((cfg0.win 5).blk t).view.emb j) 0).val = (j 0).val := by
    show win0_5.index t (0 : Fin 2) * 256 + 1 * (j 0).val = (j 0).val; omega
  have hi1 : ((((cfg0.win 5).blk t).view.emb j) 1).val = (j 1).val := by
    show win0_5.index t (1 : Fin 2) * 768 + 1 * (j 1).val = (j 1).val; omega
  exact dense_point (iblk0 V c 0 t) (iblk0 V c 1 t) (iblk0 V c 2 t) (iblk0 V c 3 t) (iblk0 V c 4 t)
    (V c main_v7) (V c main_arg4) (V c main_v8) (V c main_arg6) (V c main_v9) j (((cfg0.win 5).blk t).view.emb j) hi0 hi1
    (rows_whole V c t) (weights1_whole V c t) (bias1_whole V c t) (weights2_whole V c t) (bias2_whole V c t)

/-- An index of the result array is in point t's block iff each coordinate is in the block's range on its axis. -/
theorem mem_block (t : Fin cfg0.N) (i : S256x768.Idx) :
    i ∈ ((cfg0.win 5).blk t).view.set ↔ ∀ a : Fin 2, win0_5.index t a * S256x768.size a ≤ (i a).val ∧ (i a).val < win0_5.index t a * S256x768.size a + S256x768.size a := by
  show i ∈ ((View.whole main_v10).slice (win0_5.rect t)).set ↔ _
  rw [View.set_slice_whole, Rect.mem_set_unit]
  exact Iff.rfl

/-- THE RESULT ARRAY after the region: the two-layer map of the five arrays it found, everywhere. -/
theorem result_eq (c : Dev nD) :
    (dat0 V c).arrAt 5 cfg0.N = dense (V c main_v7) (V c main_arg4) (V c main_v8) (V c main_arg6) (V c main_v9) :=
  (dat0 V c).arrAt_eq_of_cover 5 _ (fun t _ => flushed_eq V c t) fun i => by
    have hr : (i 0).val < 256 := (i 0).isLt
    have hd : (i 1).val < 768 := (i 1).isLt
    refine ⟨t0_0, flush0_5 _, ?_⟩
    obtain ⟨-, -, -, -, -, -, -, -, -, -, e0, e1⟩ := block_index t0_0
    rw [mem_block]
    intro a
    match a with
    | ⟨0, _⟩ => show win0_5.index _ (0 : Fin 2) * 256 ≤ (i 0).val ∧ (i 0).val < win0_5.index _ (0 : Fin 2) * 256 + 256; rw [e0]; omega
    | ⟨1, _⟩ => show win0_5.index _ (1 : Fin 2) * 768 ≤ (i 1).val ∧ (i 1).val < win0_5.index _ (1 : Fin 2) * 768 + 768; rw [e1]; omega

end Cert.KernelIdeal.Dense

end
-- ==== Proof.SpreadBody.lean ====
/-
  The second region's body, read one entry at a time on the extended reals.  For one batch element, with the mask
  block m[0,e,s] (8 entities × 512 tokens), the entity vectors v[0,e,d] (8 × 768) and the token embeddings x[0,s,d]:

      stored[0,s,d] = x[0,s,d] + Σ_e m[0,e,s] · v[0,e,d]

  (the mask is transposed before the product, so the contracted axis is the entity axis of both operands).
-/
import proofs.«174357_j9955734192251_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Spread

open Cert.KernelIdeal Cert.KernelIdeal.Gen Idealize.ShloMosaic Idealize.ShloMosaic.ValueIdx

/-! ## The product [512,8] × [8,768] -/

local notation "D3" => dot_S512x8_S8x768_S512x768_1_0_0_1_n_n

theorem d3_lhs0 (i : S512x768.Idx) (q : (D3).contr.Idx) : ((D3).lhsIdx i q 0).val = (i 0).val := by
  unfold DotDims.lhsIdx
  rw [dif_neg (show ¬(0 : Fin S512x8.rank) ∈ (D3).lhsBatch by decide), dif_pos (show (0 : Fin S512x8.rank) ∈ (D3).lhsNonContracting by decide)]
  rfl
theorem d3_lhs1 (i : S512x768.Idx) (q : (D3).contr.Idx) : ((D3).lhsIdx i q 1).val = (q ⟨0, by decide⟩).val :=
  (D3).lhsIdx_val_of_single rfl i q
theorem d3_rhs0 (i : S512x768.Idx) (q : (D3).contr.Idx) : ((D3).rhsIdx i q 0).val = (q ⟨0, by decide⟩).val :=
  (D3).rhsIdx_val_of_single rfl i q
theorem d3_rhs1 (i : S512x768.Idx) (q : (D3).contr.Idx) : ((D3).rhsIdx i q 1).val = (i 1).val := by
  unfold DotDims.rhsIdx
  rw [dif_neg (show ¬(1 : Fin S8x768.rank) ∈ (D3).rhsBatch by decide), dif_pos (show (1 : Fin S8x768.rank) ∈ (D3).rhsNonContracting by decide)]
  rfl

/-- Entry (s, d) of the product is the sum over the entity axis e of l[s,e]·w[e,d]. -/
theorem product3_apply {φ₁ φ₂ : FTy} (l : FVec Ideal S512x8 φ₁) (w : FVec Ideal S8x768 φ₂) (s : Fin 512) (d : Fin 768) :
    matmul D3 none l w (constant (F := Ideal) S512x768 .f32 0x00000000#32) (ix2 s d)
      = ∑ e : Fin 8, l (ix2 s e) * w (ix2 e d) := by
  simp only [matmul]
  rw [Ideal.matmul_constant_zero_apply, ← Equiv.sum_comp (contrEquiv1 D3 8 rfl rfl).symm]
  refine Finset.sum_congr rfl fun k _ => ?_
  have hk := contrEquiv1_symm_val D3 8 rfl rfl k
  have el : (D3).lhsIdx (ix2 s d) ((contrEquiv1 D3 8 rfl rfl).symm k) = ix2 s k := funext fun a => Fin.ext (by
    match a with
    | ⟨0, _⟩ => exact d3_lhs0 _ _
    | ⟨1, _⟩ => exact (d3_lhs1 _ _).trans hk)
  have er : (D3).rhsIdx (ix2 s d) ((contrEquiv1 D3 8 rfl rfl).symm k) = ix2 k d := funext fun a => Fin.ext (by
    match a with
    | ⟨0, _⟩ => exact (d3_rhs0 _ _).trans hk
    | ⟨1, _⟩ => exact d3_rhs1 _ _)
  rw [el, er]

/-- What the second region's body stores, entry (0, s, d). -/
theorem spread_apply (m : Vec Ideal S1x8x512 .f32) (v : Vec Ideal S1x8x768 .f32) (x : Vec Ideal S1x512x768 .f32)
    (u : Fin 1) (s : Fin 512) (d : Fin 768) :
    k1_pay1 (F := Ideal) m v x (ix3 u s d)
      = x (ix3 (0 : Fin 1) s d) + ∑ e : Fin 8, m (ix3 (0 : Fin 1) e s) * v (ix3 (0 : Fin 1) e d) := by
  unfold k1_pay1
  rw [shapeCast_ab_1ab_apply, addf_apply, shapeCast_1ab_ab_apply, product3_apply]
  refine congrArg (x (ix3 (0 : Fin 1) s d) + ·) (Finset.sum_congr rfl fun e _ => ?_)
  rw [transpose_ix2_apply, truncf_apply, truncf_apply, shapeCast_1ab_ab_apply, shapeCast_1ab_ab_apply]

end Cert.KernelIdeal.Spread

end
-- ==== Proof.SpreadRegion.lean ====
/-
  What the scatter region leaves in its result array, as one function of the three arrays it reads.  The grid has one
  point per batch element b; at that point the body sees block b of the token embeddings X, of the mask M and of the
  entity vectors E, and writes back block b of the result.  The 32 blocks tile the result array, so after the region

      result[b,s,d] = X[b,s,d] + Σ_e M[b,e,s] · E[b,e,d]          for every b, s, d.
-/
import proofs.«174357_j9955734192251_1_alg».proof.Proof.Gen.KernelIdeal.Frame
import proofs.«174357_j9955734192251_1_alg».proof.Proof.SpreadBody

set_option maxRecDepth 16384

noncomputable section

namespace Cert.KernelIdeal.Spread

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The scatter-add of the entity vectors into the token embeddings, entry by entry. -/
def spread (X : S32x512x768.Idx → EReal) (M : S32x8x512.Idx → EReal) (E : S32x8x768.Idx → EReal) : S32x512x768.Idx → EReal :=
  fun i => X i + ∑ e : Fin 8, M (ix3 (⟨(i 0).val, (i 0).isLt⟩ : Fin 32) e (⟨(i 1).val, (i 1).isLt⟩ : Fin 512))
    * E (ix3 (⟨(i 0).val, (i 0).isLt⟩ : Fin 32) e (⟨(i 2).val, (i 2).isLt⟩ : Fin 768))

theorem hz3 : (![0, 0, 0] : Fin 3 → Nat) = fun _ => 0 := funext fun a => by fin_cases a <;> rfl

/-- Every window of the region moves along the batch axis only: at point t its block index is (t, 0, 0). -/
theorem block_index : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The token-embedding block at point t is batch element t of the array the region finds. -/
theorem tokens_block (c : Dev nD) (t : Fin cfg1.N) (y : S1x512x768.Idx) (k : S32x512x768.Idx)
    (h0 : (k 0).val = t.val) (h1 : (k 1).val = (y 1).val) (h2 : (k 2).val = (y 2).val) :
    (iblk1 V c 0 t : Vec Ideal S1x512x768 .f32) y = (V c main_v6 : S32x512x768.Idx → EReal) k := by
  obtain ⟨e0, e1, e2, -⟩ := block_index t
  unfold iblk1
  rw [View.read_apply]
  show V c main_v6 _ = V c main_v6 _
  congr 1
  funext a
  apply Fin.ext
  match a with
  | ⟨0, _⟩ => show win1_0.index t (0 : Fin 3) * 1 + 1 * (y 0).val = (k 0).val; have hy : (y 0).val < 1 := (y 0).isLt; omega
  | ⟨1, _⟩ => show win1_0.index t (1 : Fin 3) * 512 + 1 * (y 1).val = (k 1).val; omega
  | ⟨2, _⟩ => show win1_0.index t (2 : Fin 3) * 768 + 1 * (y 2).val = (k 2).val; omega

/-- The mask block at point t is batch element t of the mask. -/
theorem mask_block (c : Dev nD) (t : Fin cfg1.N) (y : S1x8x512.Idx) (k : S32x8x512.Idx)
    (h0 : (k 0).val = t.val) (h1 : (k 1).val = (y 1).val) (h2 : (k 2).val = (y 2).val) :
    (iblk1 V c 1 t : Vec Ideal S1x8x512 .f32) y = (V c main_arg2 : S32x8x512.Idx → EReal) k := by
  obtain ⟨-, -, -, e0, e1, e2, -⟩ := block_index t
  unfold iblk1
  rw [View.read_apply]
  show V c main_arg2 _ = V c main_arg2 _
  congr 1
  funext a
  apply Fin.ext
  match a with
  | ⟨0, _⟩ => show win1_1.index t (0 : Fin 3) * 1 + 1 * (y 0).val = (k 0).val; have hy : (y 0).val < 1 := (y 0).isLt; omega
  | ⟨1, _⟩ => show win1_1.index t (1 : Fin 3) * 8 + 1 * (y 1).val = (k 1).val; omega
  | ⟨2, _⟩ => show win1_1.index t (2 : Fin 3) * 512 + 1 * (y 2).val = (k 2).val; omega

/-- The entity-vector block at point t is batch element t of the entity vectors. -/
theorem entities_block (c : Dev nD) (t : Fin cfg1.N) (y : S1x8x768.Idx) (k : S32x8x768.Idx)
    (h0 : (k 0).val = t.val) (h1 : (k 1).val = (y 1).val) (h2 : (k 2).val = (y 2).val) :
    (iblk1 V c 2 t : Vec Ideal S1x8x768 .f32) y = (V c main_v11 : S32x8x768.Idx → EReal) k := by
  obtain ⟨-, -, -, -, -, -, e0, e1, e2, -⟩ := block_index t
  unfold iblk1
  rw [View.read_apply]
  show V c main_v11 _ = V c main_v11 _
  congr 1
  funext a
  apply Fin.ext
  match a with
  | ⟨0, _⟩ => show win1_2.index t (0 : Fin 3) * 1 + 1 * (y 0).val = (k 0).val; have hy : (y 0).val < 1 := (y 0).isLt; omega
  | ⟨1, _⟩ => show win1_2.index t (1 : Fin 3) * 8 + 1 * (y 1).val = (k 1).val; omega
  | ⟨2, _⟩ => show win1_2.index t (2 : Fin 3) * 768 + 1 * (y 2).val = (k 2).val; omega

/-- One stored entry, from blocks that are batch element b of three arrays: the scatter-add at (b, s, d). -/
theorem spread_point (x : Vec Ideal S1x512x768 .f32) (mk : Vec Ideal S1x8x512 .f32) (v : Vec Ideal S1x8x768 .f32)
    (X : S32x512x768.Idx → EReal) (M : S32x8x512.Idx → EReal) (E : S32x8x768.Idx → EReal)
    (j : S1x512x768.Idx) (i : S32x512x768.Idx) (h1 : (i 1).val = (j 1).val) (h2 : (i 2).val = (j 2).val)
    (hx : ∀ (y : S1x512x768.Idx) (k : S32x512x768.Idx), (k 0).val = (i 0).val → (k 1).val = (y 1).val → (k 2).val = (y 2).val → x y = X k)
    (hm : ∀ (y : S1x8x512.Idx) (k : S32x8x512.Idx), (k 0).val = (i 0).val → (k 1).val = (y 1).val → (k 2).val = (y 2).val → mk y = M k)
    (hv : ∀ (y : S1x8x768.Idx) (k : S32x8x768.Idx), (k 0).val = (i 0).val → (k 1).val = (y 1).val → (k 2).val = (y 2).val → v y = E k) :
    k1_pay1 (F := Ideal) mk v x j = spread X M E i := by
  obtain ⟨u, s, d, rfl⟩ : ∃ (u : Fin 1) (s : Fin 512) (d : Fin 768), j = ix3 u s d := ⟨j 0, j 1, j 2, eq_ix3 j⟩
  rw [spread_apply]
  unfold spread
  rw [hx (ix3 (0 : Fin 1) s d) i rfl h1 h2]
  refine congrArg (X i + ·) (Finset.sum_congr rfl fun e _ => ?_)
  rw [hm (ix3 (0 : Fin 1) e s) (ix3 (⟨(i 0).val, (i 0).isLt⟩ : Fin 32) e (⟨(i 1).val, (i 1).isLt⟩ : Fin 512)) rfl rfl h1,
    hv (ix3 (0 : Fin 1) e d) (ix3 (⟨(i 0).val, (i 0).isLt⟩ : Fin 32) e (⟨(i 2).val, (i 2).isLt⟩ : Fin 768)) rfl rfl h2]

/-- WHAT POINT t WRITES BACK is block t of the scatter-add of the three arrays the region finds. -/
theorem flushed_eq (c : Dev nD) (t : Fin cfg1.N) :
    (dat1 V c).flushed 3 t = ((cfg1.win 3).blk t).view.read (Elt Ideal) (spread (V c main_v6) (V c main_arg2) (V c main_v11)) := by
  show (cfg1.win 3).cut (grid1.coords t) ((dat1 V c).after 3 t) = _
  rw [after1_3]
  unfold out1_3
  rw [View.canon_unit_zero hz3]
  simp only [View.ld_unit_zero (S := S1x8x512) hz3, View.ld_unit_zero (S := S1x8x768) hz3, View.ld_unit_zero (S := S1x512x768) hz3]
  obtain ⟨-, -, -, -, -, -, -, -, -, e0, e1, e2⟩ := block_index t
  funext j
  show k1_pay1 (F := Ideal) (iblk1 V c 1 t) (iblk1 V c 2 t) (iblk1 V c 0 t) j
    = spread (V c main_v6) (V c main_arg2) (V c main_v11) (((cfg1.win 3).blk t).view.emb j)
  have hi0 : ((((cfg1.win 3).blk t).view.emb j) 0).val = t.val := by
    show win1_3.index t (0 : Fin 3) * 1 + 1 * (j 0).val = t.val; have hj : (j 0).val < 1 := (j 0).isLt; omega
  have hi1 : ((((cfg1.win 3).blk t).view.emb j) 1).val = (j 1).val := by
    show win1_3.index t (1 : Fin 3) * 512 + 1 * (j 1).val = (j 1).val; omega
  have hi2 : ((((cfg1.win 3).blk t).view.emb j) 2).val = (j 2).val := by
    show win1_3.index t (2 : Fin 3) * 768 + 1 * (j 2).val = (j 2).val; omega
  exact spread_point (iblk1 V c 0 t) (iblk1 V c 1 t) (iblk1 V c 2 t) (V c main_v6) (V c main_arg2) (V c main_v11) j
    (((cfg1.win 3).blk t).view.emb j) hi1 hi2
    (fun y k h0 h1 h2 => tokens_block V c t y k (h0.trans hi0) h1 h2)
    (fun y k h0 h1 h2 => mask_block V c t y k (h0.trans hi0) h1 h2)
    (fun y k h0 h1 h2 => entities_block V c t y k (h0.trans hi0) h1 h2)

/-- An index of the result array is in point t's block iff each coordinate is in the block's range on its axis. -/
theorem mem_block (t : Fin cfg1.N) (i : S32x512x768.Idx) :
    i ∈ ((cfg1.win 3).blk t).view.set ↔ ∀ a : Fin 3, win1_3.index t a * S1x512x768.size a ≤ (i a).val ∧ (i a).val < win1_3.index t a * S1x512x768.size a + S1x512x768.size a := by
  show i ∈ ((View.whole main_v12).slice (win1_3.rect t)).set ↔ _
  rw [View.set_slice_whole, Rect.mem_set_unit]
  exact Iff.rfl

/-- THE RESULT ARRAY after the region: the scatter-add of the three arrays it found, everywhere (entry (b, s, d) lies in
    the block of point b). -/
theorem result_eq (c : Dev nD) :
    (dat1 V c).arrAt 3 cfg1.N = spread (V c main_v6) (V c main_arg2) (V c main_v11) :=
  (dat1 V c).arrAt_eq_of_cover 3 _ (fun t _ => flushed_eq V c t) fun i => by
    have hN : cfg1.N = 32 := N_1
    have hb : (i 0).val < 32 := (i 0).isLt
    have hs : (i 1).val < 512 := (i 1).isLt
    have hd : (i 2).val < 768 := (i 2).isLt
    have ht : (i 0).val < cfg1.N := by omega
    refine ⟨⟨(i 0).val, ht⟩, flush1_3 _, ?_⟩
    obtain ⟨-, -, -, -, -, -, -, -, -, e0, e1, e2⟩ := block_index ⟨(i 0).val, ht⟩
    replace e0 : win1_3.index ⟨(i 0).val, ht⟩ (0 : Fin 3) = (i 0).val := e0
    rw [mem_block]
    intro a
    match a with
    | ⟨0, _⟩ => show win1_3.index _ (0 : Fin 3) * 1 ≤ (i 0).val ∧ (i 0).val < win1_3.index _ (0 : Fin 3) * 1 + 1; rw [e0]; omega
    | ⟨1, _⟩ => show win1_3.index _ (1 : Fin 3) * 512 ≤ (i 1).val ∧ (i 1).val < win1_3.index _ (1 : Fin 3) * 512 + 512; rw [e1]; omega
    | ⟨2, _⟩ => show win1_3.index _ (2 : Fin 3) * 768 ≤ (i 2).val ∧ (i 2).val < win1_3.index _ (2 : Fin 3) * 768 + 768; rw [e2]; omega

end Cert.KernelIdeal.Spread

end
-- ==== Proof.WholeValue.lean ====
/-
  The program's result as ONE function of its eight arguments.  Reading the four stretches back to front:
  the scatter region leaves  X + Σ_e M·E  (per batch element) of the arrays it finds; of these X is the gathered token
  embeddings (a host gather of the table at the ids, negative ids wrapped once), copied by the host into the result buffer's
  twin and untouched since, M is the mask argument itself, and E is the dense region's result regrouped from 256 rows to
  32 × 8; the dense region in turn finds the entity vectors flattened to 256 rows, the two weight matrices as given, and
  the two biases as single rows.
-/
import proofs.«174357_j9955734192251_1_alg».proof.Proof.WholeRun
import proofs.«174357_j9955734192251_1_alg».proof.Proof.DenseRegion
import proofs.«174357_j9955734192251_1_alg».proof.Proof.SpreadRegion
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Cert.KernelIdeal.Dense Cert.KernelIdeal.Spread

variable (m : (ℓ : Loc nD τ sig) → Buf (Elt Ideal) ℓ) (ρ : Dev nD → PrngReg)

/-- The gathered token embeddings: the table's rows at the ids, an id below zero first moved up by the table's height. -/
def tokens (ids : (⟨S32x512, .i32⟩ : BufTy).Contents (Elt Ideal)) (table : (⟨S30522x768, .f32⟩ : BufTy).Contents (Elt Ideal)) :
    (⟨S32x512x768, .f32⟩ : BufTy).Contents (Elt Ideal) :=
  Host.gather gather_S30522x768_S32x512x1_S32x512x768_2_0_n_n_0_2_1768 table
    (broadcastInDim S32x512x1 ![0, 1] bcast_S32x512_S32x512x1_0_1
      (select (cmpi .slt ids (broadcastInDim S32x512 ![] bcast_S_S32x512 (constantI S_ 32 0#32)))
        (addi ids (broadcastInDim S32x512 ![] bcast_S_S32x512 (constantI S_ 32 30522#32))) ids))

/-- The whole program's result, from its arguments: ids, entity vectors, mask, table, W1, b1, W2, b2. -/
def result (x0 : (⟨S32x512, .i32⟩ : BufTy).Contents (Elt Ideal)) (x1 : S32x8x100.Idx → EReal) (x2 : S32x8x512.Idx → EReal)
    (x3 : S30522x768.Idx → EReal) (x4 : S100x1000.Idx → EReal) (x5 : S1000.Idx → EReal) (x6 : S1000x768.Idx → EReal)
    (x7 : S768.Idx → EReal) : S32x512x768.Idx → EReal :=
  spread (tokens x0 x3) x2
    (shapeCast S32x8x768
      (dense (shapeCast S256x100 x1 shapeCasts_S32x8x100_S256x100) x4 (shapeCast S1x1000 x5 shapeCasts_S1000_S1x1000) x6
        (shapeCast S1x768 x7 shapeCasts_S768_S1x768))
      shapeCasts_S256x768_S32x8x768)

/-! ## What the dense region finds -/

theorem rows_found (c : Dev nD) :
    V1 m ρ c main_v7 = shapeCast S256x100 (m ((c : Thread nD τ).loc main_arg1)) shapeCasts_S32x8x100_S256x100 := by
  show StableHlo.after hostOps0 (W0 m ρ c) (Proc.devRef .tc main_v7) = _
  after_results <;> rfl
theorem weights1_found (c : Dev nD) : V1 m ρ c main_arg4 = m ((c : Thread nD τ).loc main_arg4) := by
  show StableHlo.after hostOps0 (W0 m ρ c) (Proc.devRef .tc main_arg4) = _
  after_results <;> rfl
theorem bias1_found (c : Dev nD) :
    V1 m ρ c main_v8 = shapeCast S1x1000 (m ((c : Thread nD τ).loc main_arg5)) shapeCasts_S1000_S1x1000 := by
  show StableHlo.after hostOps0 (W0 m ρ c) (Proc.devRef .tc main_v8) = _
  after_results <;> rfl
theorem weights2_found (c : Dev nD) : V1 m ρ c main_arg6 = m ((c : Thread nD τ).loc main_arg6) := by
  show StableHlo.after hostOps0 (W0 m ρ c) (Proc.devRef .tc main_arg6) = _
  after_results <;> rfl
theorem bias2_found (c : Dev nD) :
    V1 m ρ c main_v9 = shapeCast S1x768 (m ((c : Thread nD τ).loc main_arg7)) shapeCasts_S768_S1x768 := by
  show StableHlo.after hostOps0 (W0 m ρ c) (Proc.devRef .tc main_v9) = _
  after_results <;> rfl

/-! ## What the scatter region finds -/

theorem tokens_found (c : Dev nD) :
    V3 m ρ c main_v6 = tokens (m ((c : Thread nD τ).loc main_arg0)) (m ((c : Thread nD τ).loc main_arg3)) := by
  have h1 : V3 m ρ c main_v6 = W2 m ρ c (Proc.devRef .tc main_v6) := by
    show StableHlo.after hostOps1 (W2 m ρ c) (Proc.devRef .tc main_v6) = _
    after_results <;> rfl
  have h3 : W1 m ρ c (Proc.devRef .tc main_v6) = tokens (m ((c : Thread nD τ).loc main_arg0)) (m ((c : Thread nD τ).loc main_arg3)) := by
    show StableHlo.after hostOps0 (W0 m ρ c) (Proc.devRef .tc main_v6) = _
    after_results <;> rfl
  exact h1.trans ((W2_of_ne m ρ c main_v6 (by decide)).trans h3)

theorem mask_found (c : Dev nD) : V3 m ρ c main_arg2 = m ((c : Thread nD τ).loc main_arg2) := by
  have h1 : V3 m ρ c main_arg2 = W2 m ρ c (Proc.devRef .tc main_arg2) := by
    show StableHlo.after hostOps1 (W2 m ρ c) (Proc.devRef .tc main_arg2) = _
    after_results <;> rfl
  have h3 : W1 m ρ c (Proc.devRef .tc main_arg2) = m ((c : Thread nD τ).loc main_arg2) := by
    show StableHlo.after hostOps0 (W0 m ρ c) (Proc.devRef .tc main_arg2) = _
    after_results <;> rfl
  exact h1.trans ((W2_of_ne m ρ c main_arg2 (by decide)).trans h3)

theorem entities_found (c : Dev nD) :
    V3 m ρ c main_v11 = shapeCast S32x8x768
      (dense (shapeCast S256x100 (m ((c : Thread nD τ).loc main_arg1)) shapeCasts_S32x8x100_S256x100) (m ((c : Thread nD τ).loc main_arg4))
        (shapeCast S1x1000 (m ((c : Thread nD τ).loc main_arg5)) shapeCasts_S1000_S1x1000) (m ((c : Thread nD τ).loc main_arg6))
        (shapeCast S1x768 (m ((c : Thread nD τ).loc main_arg7)) shapeCasts_S768_S1x768))
      shapeCasts_S256x768_S32x8x768 := by
  have h1 : V3 m ρ c main_v11 = shapeCast S32x8x768 (W2 m ρ c (Proc.devRef .tc main_v10)) shapeCasts_S256x768_S32x8x768 := by
    show StableHlo.after hostOps1 (W2 m ρ c) (Proc.devRef .tc main_v11) = _
    after_results <;> rfl
  have h2 : W2 m ρ c (Proc.devRef .tc main_v10)
      = dense (V1 m ρ c main_v7) (V1 m ρ c main_arg4) (V1 m ρ c main_v8) (V1 m ρ c main_arg6) (V1 m ρ c main_v9) :=
    (W2_arr m ρ c 5).trans (Dense.result_eq (V1 m ρ) c)
  rw [h1, h2, rows_found, weights1_found, bias1_found, weights2_found, bias2_found]

/-! ## The result buffer at the end, and the run -/

theorem result_found (c : Dev nD) :
    W4 m ρ c (Proc.devRef .tc main_v12) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine ((W4_arr m ρ c 3).trans (Spread.result_eq (V3 m ρ) c)).trans ?_
  rw [tokens_found, mask_found, entities_found]
  rfl

/-- Every weakly fair execution terminates, nothing faulting, with the result buffer at `result` of the arguments and the
    arguments as launched. -/
theorem run : θ_run defs (onTc (τ := τ) (main (F := Ideal))) ⟨m, fun _ => 0, ρ⟩ (fun r => ∀ c : Dev nD,
      r.2.mem ((c.tc : Thread nD τ).loc main_v12) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_found m ρ c), (h c).2⟩) (run_kept (F := Ideal) m ρ)

end Cert.KernelIdeal.Whole

end
-- ==== Proof.SameFunction.lean ====
/-
  The kernel's result and the reference's are one function of the arguments, entry by entry, on the extended reals.
  At batch element b, token s, hidden coordinate d both are

      T[b,s,d] + Σ_e mask[b,e,s] · ( (Σ_h max (Σ_k ent[b,e,k]·W1[k,h] + b1[h], 0) · W2[h,d]) + b2[d] )

  with T the gathered token embeddings (the same host gather in both programs).  The kernel reaches it through row
  b·8 + e of the flattened entity vectors and of its 256-row intermediate result; the reference contracts the three-axis
  arrays directly.  The sums are over the same index sets in the same order, so nothing beyond re-indexing is needed: no
  law of arithmetic that could fail at an infinity is used.
-/
import proofs.«174357_j9955734192251_1_alg».proof.Proof.WholeValue
import proofs.«174357_j9955734192251_1_alg».proof.Proof.Gen.ReferenceIdeal.Read
import Idealize.ShloMosaic.Lib.ValueLayout

set_option maxRecDepth 16384

noncomputable section

namespace Cert.SameFunction

open Idealize.ShloMosaic Idealize.ShloMosaic.ValueIdx
open Cert.KernelIdeal Cert.KernelIdeal.Gen Cert.KernelIdeal.Dense Cert.KernelIdeal.Spread Cert.KernelIdeal.Whole
open Cert.ReferenceIdeal (Read.val_main_v17)

/-- The entity term both programs add under the mask: the two-layer map of entity (b, e), coordinate d. -/
def entity (x1 : S32x8x100.Idx → EReal) (x4 : S100x1000.Idx → EReal) (x5 : S1000.Idx → EReal) (x6 : S1000x768.Idx → EReal)
    (x7 : S768.Idx → EReal) (b : Fin 32) (e : Fin 8) (d : Fin 768) : EReal :=
  (∑ h : Fin 1000, max ((∑ k : Fin 100, x1 (ix3 b e k) * x4 (ix2 k h)) + x5 (ix1 h)) (Ideal.ofBits .f32 0x00000000#32) * x6 (ix2 h d))
    + x7 (ix1 d)

/-! ## The kernel's side -/

theorem dense_ix2 (A : S256x100.Idx → EReal) (W1 : S100x1000.Idx → EReal) (B1 : S1x1000.Idx → EReal) (W2 : S1000x768.Idx → EReal)
    (B2 : S1x768.Idx → EReal) (r : Fin 256) (d : Fin 768) :
    dense A W1 B1 W2 B2 (ix2 r d) = (∑ h : Fin 1000, Dense.hidden A W1 B1 r h * W2 (ix2 h d)) + B2 (ix2 (0 : Fin 1) d) := rfl

theorem spread_ix3 (X : S32x512x768.Idx → EReal) (M : S32x8x512.Idx → EReal) (E : S32x8x768.Idx → EReal) (b : Fin 32) (s : Fin 512) (d : Fin 768) :
    spread X M E (ix3 b s d) = X (ix3 b s d) + ∑ e : Fin 8, M (ix3 b e s) * E (ix3 b e d) := rfl

/-- Row b·8 + e of the 256-row array is entity (b, e) of the regrouped one. -/
theorem regroup_apply (Y : S256x768.Idx → EReal) (b : Fin 32) (e : Fin 8) (d : Fin 768) :
    shapeCast S32x8x768 Y shapeCasts_S256x768_S32x8x768 (ix3 b e d) = Y (ix2 (⟨b.val * 8 + e.val, by omega⟩ : Fin 256) d) :=
  shapeCast_apply Y _ _ _ (by
    rw [Shape.rowMajor_val_two, Shape.rowMajor_val_three]
    show (b.val * 8 + e.val) * 768 + d.val = (b.val * 8 + e.val) * 768 + d.val
    rfl)

/-- Row b·8 + e of the flattened entity vectors is entity (b, e). -/
theorem flatten_apply (x1 : S32x8x100.Idx → EReal) (b : Fin 32) (e : Fin 8) (k : Fin 100) :
    shapeCast S256x100 x1 shapeCasts_S32x8x100_S256x100 (ix2 (⟨b.val * 8 + e.val, by omega⟩ : Fin 256) k) = x1 (ix3 b e k) :=
  shapeCast_apply x1 _ _ _ (by
    rw [Shape.rowMajor_val_two, Shape.rowMajor_val_three]
    show (b.val * 8 + e.val) * 100 + k.val = (b.val * 8 + e.val) * 100 + k.val
    rfl)

/-- The kernel's entity term. -/
theorem kernel_entity (x1 : S32x8x100.Idx → EReal) (x4 : S100x1000.Idx → EReal) (x5 : S1000.Idx → EReal) (x6 : S1000x768.Idx → EReal)
    (x7 : S768.Idx → EReal) (b : Fin 32) (e : Fin 8) (d : Fin 768) :
    shapeCast S32x8x768
      (dense (shapeCast S256x100 x1 shapeCasts_S32x8x100_S256x100) x4 (shapeCast S1x1000 x5 shapeCasts_S1000_S1x1000) x6
        (shapeCast S1x768 x7 shapeCasts_S768_S1x768))
      shapeCasts_S256x768_S32x8x768 (ix3 b e d) = entity x1 x4 x5 x6 x7 b e d := by
  rw [regroup_apply, dense_ix2, shapeCast_a_1a_apply]
  unfold entity
  refine congrArg (· + x7 (ix1 d)) (Finset.sum_congr rfl fun h _ => ?_)
  unfold Dense.hidden
  rw [shapeCast_a_1a_apply]
  refine congrArg (fun z => max (z + x5 (ix1 h)) (Ideal.ofBits .f32 0x00000000#32) * x6 (ix2 h d)) (Finset.sum_congr rfl fun k _ => ?_)
  rw [flatten_apply]

/-! ## The reference's side -/

open Cert.ReferenceIdeal.Read in
/-- The reference's entity term (its value `%15`). -/
theorem reference_entity (x1 : S32x8x100.Idx → EReal) (x4 : S100x1000.Idx → EReal) (x5 : S1000.Idx → EReal) (x6 : S1000x768.Idx → EReal)
    (x7 : S768.Idx → EReal) (b : Fin 32) (e : Fin 8) (d : Fin 768) :
    val_main_v15 (F := Ideal) x1 x4 x5 x6 x7 (ix3 b e d) = entity x1 x4 x5 x6 x7 b e d := by
  have o1 : idx_main_v13 (idx_main_v14 (ix3 b e d)) = ix1 d := funext fun a => Fin.ext (by match a with | ⟨0, _⟩ => rfl)
  rw [val_main_v15_apply, val_main_v12_apply, val_main_v14_apply, val_main_v13_apply, o1]
  unfold entity
  refine congrArg (· + x7 (ix1 d)) (Finset.sum_congr rfl fun h _ => ?_)
  have l2 : lidx_main_v12 (ix3 b e d) h = ix3 b e h := funext fun a => Fin.ext (by
    match a with | ⟨0, _⟩ => rfl | ⟨1, _⟩ => rfl | ⟨2, _⟩ => rfl)
  have r2 : ridx_main_v12 (ix3 b e d) h = ix2 h d := funext fun a => Fin.ext (by
    match a with | ⟨0, _⟩ => rfl | ⟨1, _⟩ => rfl)
  have o2 : idx_main_v8 (idx_main_v9 (ix3 b e h)) = ix1 h := funext fun a => Fin.ext (by match a with | ⟨0, _⟩ => rfl)
  rw [l2, r2, val_main_v11_apply, val_main_v10_apply, val_main_v7_apply, val_main_v9_apply, val_main_v8_apply, o2,
    val_main_call0_v0_apply, val_main_call0_cst_apply]
  refine congrArg (fun z => max (z + x5 (ix1 h)) (Ideal.ofBits .f32 0x00000000#32) * x6 (ix2 h d)) (Finset.sum_congr rfl fun k _ => ?_)
  have l1 : lidx_main_v7 (ix3 b e h) k = ix3 b e k := funext fun a => Fin.ext (by
    match a with | ⟨0, _⟩ => rfl | ⟨1, _⟩ => rfl | ⟨2, _⟩ => rfl)
  have r1 : ridx_main_v7 (ix3 b e h) k = ix2 k h := funext fun a => Fin.ext (by
    match a with | ⟨0, _⟩ => rfl | ⟨1, _⟩ => rfl)
  rw [l1, r1]

/-! ## The two are one function -/

open Cert.ReferenceIdeal.Read in
theorem result_eq_reference (x0 : (⟨S32x512, .i32⟩ : BufTy).Contents (Elt Ideal)) (x1 : S32x8x100.Idx → EReal) (x2 : S32x8x512.Idx → EReal)
    (x3 : S30522x768.Idx → EReal) (x4 : S100x1000.Idx → EReal) (x5 : S1000.Idx → EReal) (x6 : S1000x768.Idx → EReal)
    (x7 : S768.Idx → EReal) :
    result x0 x1 x2 x3 x4 x5 x6 x7 = val_main_v17 (F := Ideal) x0 x1 x2 x3 x4 x5 x6 x7 := by
  funext i
  obtain ⟨b, s, d, rfl⟩ : ∃ (b : Fin 32) (s : Fin 512) (d : Fin 768), i = ix3 b s d := ⟨i 0, i 1, i 2, eq_ix3 i⟩
  rw [val_main_v17_apply, val_main_v16_apply]
  unfold result
  rw [spread_ix3]
  refine congrArg₂ (· + ·) rfl (Finset.sum_congr rfl fun e _ => ?_)
  have l3 : lidx_main_v16 (ix3 b s d) e = ix3 b e s := funext fun a => Fin.ext (by
    match a with | ⟨0, _⟩ => rfl | ⟨1, _⟩ => rfl | ⟨2, _⟩ => rfl)
  have r3 : ridx_main_v16 (ix3 b s d) e = ix3 b e d := funext fun a => Fin.ext (by
    match a with | ⟨0, _⟩ => rfl | ⟨1, _⟩ => rfl | ⟨2, _⟩ => rfl)
  rw [l3, r3, kernel_entity, reference_entity]

end Cert.SameFunction

end
-- ==== Proof.lean ====
/-
  The five claims for the entity-embedding kernel against its reference.

  The kernel gathers token embeddings on the host, maps the entity vectors through two dense layers in one region
  (256 flattened rows at once), and in a second region adds, per batch element, the mask-weighted entity results onto the
  token embeddings.  The reference does the same with three contractions over three-axis arrays.  On the extended reals
  both results are the function `Cert.KernelIdeal.Whole.result` of the arguments (`Cert.SameFunction`): the kernel's by
  reading its run stretch by stretch (`Cert.KernelIdeal.Whole.run`), the reference's by its run read one operation at a
  time.  The three frame claims are the programs' runs with the result forgotten; the idealization rewrote nothing, so
  `preserves` has nothing to state.
-/
import proofs.«174357_j9955734192251_1_alg».proof.Defs
import proofs.«174357_j9955734192251_1_alg».proof.Proof.Gen.Kernel
import proofs.«174357_j9955734192251_1_alg».proof.Proof.Gen.Kernel.Skeleton
import proofs.«174357_j9955734192251_1_alg».proof.Proof.Gen.Kernel.Launch
import proofs.«174357_j9955734192251_1_alg».proof.Proof.Gen.Kernel.Points
import proofs.«174357_j9955734192251_1_alg».proof.Proof.Gen.Kernel.Frame
import proofs.«174357_j9955734192251_1_alg».proof.Proof.Gen.KernelIdeal
import proofs.«174357_j9955734192251_1_alg».proof.Proof.Gen.KernelIdeal.Skeleton
import proofs.«174357_j9955734192251_1_alg».proof.Proof.Gen.KernelIdeal.Launch
import proofs.«174357_j9955734192251_1_alg».proof.Proof.Gen.KernelIdeal.Points
import proofs.«174357_j9955734192251_1_alg».proof.Proof.Gen.KernelIdeal.Frame
import proofs.«174357_j9955734192251_1_alg».proof.Proof.Gen.ReferenceIdeal
import proofs.«174357_j9955734192251_1_alg».proof.Proof.Gen.ReferenceIdeal.Run
import proofs.«174357_j9955734192251_1_alg».proof.Proof.Gen.ReferenceIdeal.Read
import proofs.«174357_j9955734192251_1_alg».proof.Proof.Gen.Pre_finite_inputs
import proofs.«174357_j9955734192251_1_alg».proof.Proof.WholeValue
import proofs.«174357_j9955734192251_1_alg».proof.Proof.SameFunction
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result buffer at `Whole.result` of the
    arguments: the kernel by its run read back, the reference because its composed term is that function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.SameFunction.result_eq_reference _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
